-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S100000 : Shape := ⟨1, ![100000]⟩
abbrev S3x32x32 : Shape := ⟨3, ![3, 32, 32]⟩
abbrev S3x32 : Shape := ⟨2, ![3, 32]⟩
abbrev S32x16 : Shape := ⟨2, ![32, 16]⟩
abbrev S32x1 : Shape := ⟨2, ![32, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S32x16 : S_.BroadcastsInDim S32x16 (![] : Fin 0 → Fin S32x16.rank)
  reducesTo_S32x16_S_d0_1 : S32x16.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x1 .f32 := Host.absf main_arg6
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x16 .f32) (main_arg1 : IVec S2x3200000 32) (main_arg2 : IVec S100000 32) (main_arg3 : FVec F S3x32x32 .f32) (main_arg4 : FVec F S3x32 .f32) (main_arg5 : FVec F S32x16 .f32) (main_arg6 : FVec F S32x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3x32x32 .f32 := Host.absf main_arg3
  let main_cst_0 : FVec F S_ .f32 := constant S_ .f32 0x7F800000#32
  let main_v5 : FVec F S3x32x32 .f32 := broadcastInDim S3x32x32 ![] bcast_S_S3x32x32 main_cst_0
  let main_v6 : IVec S3x32x32 1 := cmpf .olt main_v4 main_v5
  let main_c_1 : IVec S_ 1 := constantI S_ 1 1#1
  let main_v7 : IVec S_ 1 := (fun x v => Host.reduce IntOp.andi x v reducesTo_S3x32x32_S_d0_1_2 h_S_) main_v6 main_c_1
  let main_v8 : IVec S_ 1 := andi main_v3 main_v7
  let main_v9 : FVec F S3x32 .f32 := Host.absf main_arg4
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_v13 main_v16
-- ==== Kernel.lean ====
abbrev S100000x16 : Shape := ⟨2, ![100000, 16]⟩
abbrev S2x3200000 : Shape := ⟨2, ![2, 3200000]⟩
abbrev S100000 : Shape := ⟨1, ![100000]⟩
abbrev S3x32x32 : Shape := ⟨3, ![3, 32, 32]⟩
abbrev S3x32 : Shape := ⟨2, ![3, 32]⟩
abbrev S32x16 : Shape := ⟨2, ![32, 16]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S1x16x32 : Shape := ⟨3, ![1, 16, 32]⟩
abbrev S16x32 : Shape := ⟨2, ![16, 32]⟩
abbrev S2x32x32 : Shape := ⟨3, ![2, 32, 32]⟩
abbrev S16000x16 : Shape := ⟨2, ![16000, 16]⟩
abbrev S16000x32 : Shape := ⟨2, ![16000, 32]⟩
abbrev S1x32 : Shape := ⟨2, ![1, 32]⟩
abbrev S32 : Shape := ⟨1, ![32]⟩
abbrev S1x32x32 : Shape := ⟨3, ![1, 32, 32]⟩
abbrev S32x32 : Shape := ⟨2, ![32, 32]⟩
abbrev S16x1 : Shape := ⟨2, ![16, 1]⟩
abbrev S100000x1 : Shape := ⟨2, ![100000, 1]⟩
abbrev S1x1 : Shape := ⟨2, ![1, 1]⟩
abbrev S128x1 : Shape := ⟨2, ![128, 1]⟩

abbrev nBuf : Space → Nat
  | .hbm => 62
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S100000, .i32⟩
  | .hbm, ⟨3, _⟩ => ⟨S3x32x32, .f32⟩
  | .hbm, ⟨4, _⟩ => ⟨S3x32, .f32⟩
  | .hbm, ⟨5, _⟩ => ⟨S32x16, .f32⟩
  | .hbm, ⟨6, _⟩ => ⟨S32x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x16, .f32⟩
  | .hbm, ⟨30, _⟩ => ⟨S1x16x32, .f32⟩
  | .hbm, ⟨31, _⟩ => ⟨S16x32, .f32⟩
  | .hbm, ⟨32, _⟩ => ⟨S1x16x32, .f32⟩
  | .hbm, ⟨33, _⟩ => ⟨S16x32, .f32⟩
  | .hbm, ⟨34, _⟩ => ⟨S2x32x32, .f32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S16x1, .f32⟩
  | .hbm, ⟨41, _⟩ => ⟨S16x1, .f32⟩
  | .hbm, ⟨42, _⟩ => ⟨S100000x1, .f32⟩
  | .hbm, ⟨43, _⟩ => ⟨S100000x1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S128x1, .f32⟩
  | .hbm, ⟨50, _⟩ => ⟨S100000x1, .i32⟩
  | .hbm, ⟨51, _⟩ => ⟨S128x1, .f32⟩
  | .hbm, ⟨52, _⟩ => ⟨S_, .f32⟩
  | .hbm, ⟨53, _⟩ => ⟨S100000x1, .f32⟩
  | .hbm, ⟨54, _⟩ => ⟨S_, .f32⟩
  | .hbm, ⟨55, _⟩ => ⟨S128x1, .f32⟩
  | .hbm, ⟨56, _⟩ => ⟨S100000x1, .i32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x1, .f32⟩
  | .local _ .vmem, ⟨0, _⟩ => ⟨S16000x16, .f32⟩
  | .local _ .vmem, ⟨1, _⟩ => ⟨S16000x16, .f32⟩
  | .local _ .vmem, ⟨2, _⟩ => ⟨S16000x16, .f32⟩
  | .local _ .vmem, ⟨3, _⟩ => ⟨S16000x16, .f32⟩
  | .local _ .vmem, ⟨4, _⟩ => ⟨S16x32, .f32⟩
  | .local _ .vmem, ⟨5, _⟩ => ⟨S16x32, .f32⟩
  | .local _ .vmem, ⟨6, _⟩ => ⟨S2x32x32, .f32⟩
  | .local _ .vmem, ⟨7, _⟩ => ⟨S3x32, .f32⟩
  | .local _ .vmem, ⟨8, _⟩ => ⟨S32x16, .f32⟩
  | .local _ .vmem, ⟨9, _⟩ => ⟨S16000x16, .f32⟩
  | .local _ .vmem, ⟨10, _⟩ => ⟨S16000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3x32x32_S1x16x32_0_0_0 : S3x32x32.Slices ![0, 0, 0] S1x16x32
  shapeCasts_S1x16x32_S16x32 : S1x16x32.ShapeCasts S16x32
  slices_S3x32x32_S1x16x32_0_16_0 : S3x32x32.Slices ![0, 16, 0] S1x16x32
  slices_S3x32x32_S2x32x32_1_0_0 : S3x32x32.Slices ![1, 0, 0] S2x32x32
  inb_S16000x16_S16000x16_0_0 : ∀ a, (![0, 0] : Fin 2 → Nat) a + S16000x16.size a ≤ S16000x16.size a
  h_S16000x16 : 0 < S16000x16.numel
  shapeCasts_S16000x16_S16000x16 : S16000x16.ShapeCasts S16000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S3x32_S1x32_0_0 : ∀ a, (![0, 0] : Fin 2 → Nat) a + S1x32.size a ≤ S3x32.size a
  h_S1x32 : 0 < S1x32.numel
  shapeCasts_S1x32_S32 : S1x32.ShapeCasts S32
  shapeCasts_S32_S1x32 : S32.ShapeCasts S1x32
  broadcasts_S1x32_S16000x32 : S1x32.Broadcasts S16000x32
  inb_S2x32x32_S1x32x32_0_0_0 : ∀ a, (![0, 0, 0] : Fin 3 → Nat) a + S1x32x32.size a ≤ S2x32x32.size a
  h_S1x32x32 : 0 < S1x32x32.numel
  shapeCasts_S1x32x32_S32x32 : S1x32x32.ShapeCasts S32x32
  inb_S3x32_S1x32_1_0 : ∀ a, (![1, 0] : Fin 2 → Nat) a + S1x32.size a ≤ S3x32.size a
  inb_S2x32x32_S1x32x32_1_0_0 : ∀ a, (![1, 0, 0] : Fin 3 → Nat) a + S1x32x32.size a ≤ S2x32x32.size a
  inb_S3x32_S1x32_2_0 : ∀ a, (![2, 0] : Fin 2 → Nat) a + S1x32.size a ≤ S3x32.size a
  inb_S32x16_S32x16_0_0 : ∀ a, (![0, 0] : Fin 2 → Nat) a + S32x16.size a ≤ S32x16.size a
  h_S32x16 : 0 < S32x16.numel
  bcast_S_S100000x16 : S_.BroadcastsInDim S100000x16 (![] : Fin 0 → Fin S100000x16.rank)
  slices_S32x1_S16x1_0_0 : S32x1.Slices ![0, 0] S16x1
  slices_S32x1_S16x1_16_0 : S32x1.Slices ![16, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S128x1 : S_.BroadcastsInDim S128x1 (![] : Fin 0 → Fin S128x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  gather_S100000x16_S3200000x1_S3200000x16_1_0_n_n_0_1_116_wf : GatherDims.WF S100000x16 S3200000x1 S3200000x16 [1] [0] [] [0] [] 1 ![1, 16]
  dot_S16000x16_S16x32_S16000x32_1_0_0_1_n_n_wf : DotDims.WF S16000x16 S16x32 S16000x32 [1] [0] [0] [1] [] []
  dot_S16000x32_S32x32_S16000x32_1_0_0_1_n_n_wf : DotDims.WF S16000x32 S32x32 S16000x32 [1] [0] [0] [1] [] []
  dot_S16000x32_S32x16_S16000x16_1_0_0_1_n_n_wf : DotDims.WF S16000x32 S32x16 S16000x16 [1] [0] [0] [1] [] []
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []
  scatter_S128x1_S100000x1_S100000x1_1_0_0_1_wf : ScatterDims.WF S128x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S3200000x16.size a
  hwx0_0 : ∀ i : grid0.Coords, EltTy.bits .f32 = 32 ∨ (Rect.block (s := S3200000x16) S16000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x16.size a ≤ S3200000x16.size a
  hwx0_1 : ∀ i : grid0.Coords, EltTy.bits .f32 = 32 ∨ (Rect.block (s := S3200000x16) S16000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32x32.size a ≤ S2x32x32.size a
  hwx0_4 : ∀ i : grid0.Coords, EltTy.bits .f32 = 32 ∨ (Rect.block (s := S2x32x32) S2x32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .f32 = 32 ∨ (Rect.block (s := S3x32) S3x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x16.size a ≤ S3200000x16.size a
  hwx0_7 : ∀ i : grid0.Coords, EltTy.bits .f32 = 32 ∨ (Rect.block (s := S3200000x16) S16000x16.size (cc0_transform_7 i) (hinb0_7 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S16000x16_S16x32_S16000x32_1_0_0_1_n_n : DotDims S16000x16 S16x32 S16000x32 where
  lhsContracting := [1]
  rhsContracting := [0]
  lhsNonContracting := [0]
  rhsNonContracting := [1]
  lhsBatch := []
  rhsBatch := []
  wf := dot_S16000x16_S16x32_S16000x32_1_0_0_1_n_n_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def dot_S16000x32_S32x16_S16000x16_1_0_0_1_n_n : DotDims S16000x32 S32x16 S16000x16 where
  lhsContracting := [1]
  rhsContracting := [0]
  lhsNonContracting := [0]
  rhsNonContracting := [1]
  lhsBatch := []
  rhsBatch := []
  wf := dot_S16000x32_S32x16_S16000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

abbrev win0_0 : Pipeline.Window sig grid0 :=
  Pipeline.Window.ofSpec (Memref.whole main_v10) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S16000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2x32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S16000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S100000 : Shape := ⟨1, ![100000]⟩
abbrev S3x32x32 : Shape := ⟨3, ![3, 32, 32]⟩
abbrev S3x32 : Shape := ⟨2, ![3, 32]⟩
abbrev S32x16 : Shape := ⟨2, ![32, 16]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S100000x32 : Shape := ⟨2, ![100000, 32]⟩
abbrev S100000x1 : Shape := ⟨2, ![100000, 1]⟩
abbrev S1x1 : Shape := ⟨2, ![1, 1]⟩
abbrev S128x1 : Shape := ⟨2, ![128, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S100000, .i32⟩
  | .hbm, ⟨3, _⟩ => ⟨S3x32x32, .f32⟩
  | .hbm, ⟨4, _⟩ => ⟨S3x32, .f32⟩
  | .hbm, ⟨5, _⟩ => ⟨S32x16, .f32⟩
  | .hbm, ⟨6, _⟩ => ⟨S32x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x16, .f32⟩
  | .hbm, ⟨30, _⟩ => ⟨S3200000x32, .f32⟩
  | .hbm, ⟨31, _⟩ => ⟨S1x32x32, .f32⟩
  | .hbm, ⟨32, _⟩ => ⟨S32x32, .f32⟩
  | .hbm, ⟨33, _⟩ => ⟨S3200000x32, .f32⟩
  | .hbm, ⟨34, _⟩ => ⟨S1x32, .f32⟩
  | .hbm, ⟨35, _⟩ => ⟨S32, .f32⟩
  | .hbm, ⟨36, _⟩ => ⟨S1x32, .f32⟩
  | .hbm, ⟨37, _⟩ => ⟨S3200000x32, .f32⟩
  | .hbm, ⟨38, _⟩ => ⟨S3200000x32, .f32⟩
  | .hbm, ⟨39, _⟩ => ⟨S3200000x32, .f32⟩
  | .hbm, ⟨40, _⟩ => ⟨S1x32x32, .f32⟩
  | .hbm, ⟨41, _⟩ => ⟨S32x32, .f32⟩
  | .hbm, ⟨42, _⟩ => ⟨S3200000x32, .f32⟩
  | .hbm, ⟨43, _⟩ => ⟨S1x32, .f32⟩
  | .hbm, ⟨44, _⟩ => ⟨S32, .f32⟩
  | .hbm, ⟨45, _⟩ => ⟨S1x32, .f32⟩
  | .hbm, ⟨46, _⟩ => ⟨S3200000x32, .f32⟩
  | .hbm, ⟨47, _⟩ => ⟨S3200000x32, .f32⟩
  | .hbm, ⟨48, _⟩ => ⟨S3200000x32, .f32⟩
  | .hbm, ⟨49, _⟩ => ⟨S1x32x32, .f32⟩
  | .hbm, ⟨50, _⟩ => ⟨S32x32, .f32⟩
  | .hbm, ⟨51, _⟩ => ⟨S3200000x32, .f32⟩
  | .hbm, ⟨52, _⟩ => ⟨S1x32, .f32⟩
  | .hbm, ⟨53, _⟩ => ⟨S32, .f32⟩
  | .hbm, ⟨54, _⟩ => ⟨S1x32, .f32⟩
  | .hbm, ⟨55, _⟩ => ⟨S3200000x32, .f32⟩
  | .hbm, ⟨56, _⟩ => ⟨S3200000x32, .f32⟩
  | .hbm, ⟨57, _⟩ => ⟨S3200000x32, .f32⟩
  | .hbm, ⟨58, _⟩ => ⟨S3200000x16, .f32⟩
  | .hbm, ⟨59, _⟩ => ⟨S3200000x16, .f32⟩
  | .hbm, ⟨60, _⟩ => ⟨S_, .f32⟩
  | .hbm, ⟨61, _⟩ => ⟨S100000x16, .f32⟩
  | .hbm, ⟨62, _⟩ => ⟨S3200000x1, .i32⟩
  | .hbm, ⟨63, _⟩ => ⟨S100000x16, .f32⟩
  | .hbm, ⟨64, _⟩ => ⟨S100000x32, .f32⟩
  | .hbm, ⟨65, _⟩ => ⟨S100000x1, .f32⟩
  | .hbm, ⟨66, _⟩ => ⟨S1x1, .f32⟩
  | .hbm, ⟨67, _⟩ => ⟨S100000x1, .f32⟩
  | .hbm, ⟨68, _⟩ => ⟨S100000x1, .f32⟩
  | .hbm, ⟨69, _⟩ => ⟨S_, .f32⟩
  | .hbm, ⟨70, _⟩ => ⟨S128x1, .f32⟩
  | .hbm, ⟨71, _⟩ => ⟨S100000x1, .i32⟩
  | .hbm, ⟨72, _⟩ => ⟨S128x1, .f32⟩
  | .hbm, ⟨73, _⟩ => ⟨S_, .f32⟩
  | .hbm, ⟨74, _⟩ => ⟨S100000x1, .f32⟩
  | .hbm, ⟨75, _⟩ => ⟨S_, .f32⟩
  | .hbm, ⟨76, _⟩ => ⟨S128x1, .f32⟩
  | .hbm, ⟨77, _⟩ => ⟨S100000x1, .i32⟩
  | .hbm, ⟨78, _⟩ => ⟨S128x1, .f32⟩
  | .hbm, ⟨79, _⟩ => ⟨S_, .f32⟩
  | .hbm, ⟨80, _⟩ => ⟨S128x1, .f32⟩
  | .hbm, ⟨81, _⟩ => ⟨S128x1, .f32⟩
  | .hbm, ⟨82, _⟩ => ⟨S128x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  slices_S3x32x32_S1x32x32_1_0_0 : S3x32x32.Slices ![1, 0, 0] S1x32x32
  slices_S3x32_S1x32_1_0 : S3x32.Slices ![1, 0] S1x32
  slices_S3x32x32_S1x32x32_2_0_0 : S3x32x32.Slices ![2, 0, 0] S1x32x32
  slices_S3x32_S1x32_2_0 : S3x32.Slices ![2, 0] S1x32
  bcast_S_S100000x16 : S_.BroadcastsInDim S100000x16 (![] : Fin 0 → Fin S100000x16.rank)
  concatenates_S100000x16_S100000x16_S100000x32_d1 : Shape.Concatenates [S100000x16, S100000x16] S100000x32 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S128x1 : S_.BroadcastsInDim S128x1 (![] : Fin 0 → Fin S128x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  gather_S100000x16_S3200000x1_S3200000x16_1_0_n_n_0_1_116_wf : GatherDims.WF S100000x16 S3200000x1 S3200000x16 [1] [0] [] [0] [] 1 ![1, 16]
  dot_S3200000x32_S32x32_S3200000x32_1_0_0_1_n_n_wf : DotDims.WF S3200000x32 S32x32 S3200000x32 [1] [0] [0] [1] [] []
  dot_S3200000x32_S32x16_S3200000x16_1_0_0_1_n_n_wf : DotDims.WF S3200000x32 S32x16 S3200000x16 [1] [0] [0] [1] [] []
  scatter_S100000x16_S3200000x1_S3200000x16_1_0_0_1_wf : ScatterDims.WF S100000x16 S3200000x1 S3200000x16 [1] [0] [0] 1
  dot_S100000x32_S32x1_S100000x1_1_0_0_1_n_n_wf : DotDims.WF S100000x32 S32x1 S100000x1 [1] [0] [0] [1] [] []
  scatter_S128x1_S100000x1_S100000x1_1_0_0_1_wf : ScatterDims.WF S128x1 S100000x1 S100000x1 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x16_S3200000x16_1_0_0_1_n_n : DotDims S3200000x32 S32x16 S3200000x16 where
  lhsContracting := [1]
  rhsContracting := [0]
  lhsNonContracting := [0]
  rhsNonContracting := [1]
  lhsBatch := []
  rhsBatch := []
  wf := dot_S3200000x32_S32x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

class Facts : Prop extends Facts₀ where

variable [Facts]
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Spec.lean ====
/-
  The edge network of the message-passing layer, and its node projection, on the extended reals, entry by entry.

  A matrix is a function of a two-coordinate index.  An edge's message is four dense layers with tanh after each:
  the first takes the 32 features of the edge's two end nodes, sixteen from each.  Written with the two ends kept
  apart the first layer is  xi · Wa + xj · Wb + b  with Wa the first sixteen rows of the weight and Wb the last
  sixteen; written on the joined row z = [xi | xj] it is  z · W + b.  A 32-term sum is the sum of its first sixteen
  and its last sixteen terms, in any commutative monoid, so the two are one number on the extended reals with no
  finiteness assumed.  Every layer's entry (r, j) depends on row r of its input only, so the network of a block of
  rows is the network of the whole array read at those rows.
-/
import proofs.«171329_j52656299049059_2_alg».proof.Proof.LibDense

noncomputable section

namespace Cert.EdgeNet

open Idealize.ShloMosaic Idealize.ShloMosaic.ValueIdx Cert.Dense

/-- A matrix of R rows and C columns of extended reals. -/
abbrev Mat (R C : Nat) := (⟨2, ![R, C]⟩ : Shape).Idx → EReal

/-- tanh of every entry. -/
def act {R C : Nat} (X : Mat R C) : Mat R C := fun i => Ideal.tanh (X i)

/-- The first sixteen and the last sixteen of thirty-two positions. -/
abbrev lo (k : Fin 16) : Fin 32 := ⟨k.val, Nat.lt_of_lt_of_le k.isLt (by decide)⟩
abbrev hi (k : Fin 16) : Fin 32 := ⟨16 + k.val, Nat.add_lt_add_left k.isLt 16⟩

/-- A 32-term sum is its first sixteen terms plus its last sixteen. -/
theorem sum_lo_hi (f : Fin 32 → EReal) : ∑ k : Fin 32, f k = ∑ k : Fin 16, f (lo k) + ∑ k : Fin 16, f (hi k) :=
  Fin.sum_univ_add (a := 16) (b := 16) f

/-- A product over a joined row [xi | xj] against a weight whose first sixteen rows are Wa and last sixteen Wb is
    the sum of the two sixteen-term products. -/
theorem mm_split {R C : Nat} (xi xj : Mat R 16) (z : Mat R 32) (wa wb : Mat 16 C) (w : Mat 32 C)
    (hzi : ∀ (r : Fin R) (k : Fin 16), z (ix2 r (lo k)) = xi (ix2 r k))
    (hzj : ∀ (r : Fin R) (k : Fin 16), z (ix2 r (hi k)) = xj (ix2 r k))
    (hwa : ∀ (k : Fin 16) (j : Fin C), w (ix2 (lo k) j) = wa (ix2 k j))
    (hwb : ∀ (k : Fin 16) (j : Fin C), w (ix2 (hi k) j) = wb (ix2 k j))
    (i : (⟨2, ![R, C]⟩ : Shape).Idx) : mm xi wa i + mm xj wb i = mm z w i := by
  unfold mm
  rw [sum_lo_hi]
  refine congrArg₂ (· + ·) (Finset.sum_congr rfl fun k _ => ?_) (Finset.sum_congr rfl fun k _ => ?_)
  · exact (congrArg₂ (· * ·) (hzi (i 0) k) (hwa k (i 1))).symm
  · exact (congrArg₂ (· * ·) (hzj (i 0) k) (hwb k (i 1))).symm

/-- The first layer with the two end nodes' features kept apart. -/
def lin2 {R C : Nat} (xi xj : Mat R 16) (wa wb : Mat 16 C) (b : Mat 1 C) : Mat R C :=
  fun i => mm xi wa i + mm xj wb i + b (ix2 (0 : Fin 1) (i 1))

theorem lin2_eq_lin {R C : Nat} (xi xj : Mat R 16) (z : Mat R 32) (wa wb : Mat 16 C) (w : Mat 32 C) (b : Mat 1 C)
    (hzi : ∀ (r : Fin R) (k : Fin 16), z (ix2 r (lo k)) = xi (ix2 r k))
    (hzj : ∀ (r : Fin R) (k : Fin 16), z (ix2 r (hi k)) = xj (ix2 r k))
    (hwa : ∀ (k : Fin 16) (j : Fin C), w (ix2 (lo k) j) = wa (ix2 k j))
    (hwb : ∀ (k : Fin 16) (j : Fin C), w (ix2 (hi k) j) = wb (ix2 k j)) :
    lin2 xi xj wa wb b = lin z w b := by
  funext i
  unfold lin2 lin
  rw [mm_split xi xj z wa wb w hzi hzj hwa hwb i]

/-- An edge's message with the two ends kept apart: tanh (tanh (tanh (tanh (xi·Wa + xj·Wb + b0)·W1 + b1)·W2 + b2)·Wm). -/
def msgSplit {R : Nat} (xi xj : Mat R 16) (wa wb : Mat 16 32) (w1 w2 : Mat 32 32) (b0 b1 b2 : Mat 1 32)
    (wm : Mat 32 16) : Mat R 16 :=
  act (mm (act (lin (act (lin (act (lin2 xi xj wa wb b0)) w1 b1)) w2 b2)) wm)

/-- The same on the joined row. -/
def msgCat {R : Nat} (z : Mat R 32) (w0 w1 w2 : Mat 32 32) (b0 b1 b2 : Mat 1 32) (wm : Mat 32 16) : Mat R 16 :=
  act (mm (act (lin (act (lin (act (lin z w0 b0)) w1 b1)) w2 b2)) wm)

theorem msgSplit_eq_msgCat {R : Nat} (xi xj : Mat R 16) (z : Mat R 32) (wa wb : Mat 16 32) (w0 w1 w2 : Mat 32 32)
    (b0 b1 b2 : Mat 1 32) (wm : Mat 32 16)
    (hzi : ∀ (r : Fin R) (k : Fin 16), z (ix2 r (lo k)) = xi (ix2 r k))
    (hzj : ∀ (r : Fin R) (k : Fin 16), z (ix2 r (hi k)) = xj (ix2 r k))
    (hwa : ∀ (k : Fin 16) (j : Fin 32), w0 (ix2 (lo k) j) = wa (ix2 k j))
    (hwb : ∀ (k : Fin 16) (j : Fin 32), w0 (ix2 (hi k) j) = wb (ix2 k j)) :
    msgSplit xi xj wa wb w1 w2 b0 b1 b2 wm = msgCat z w0 w1 w2 b0 b1 b2 wm := by
  unfold msgSplit msgCat
  rw [lin2_eq_lin xi xj z wa wb w0 b0 hzi hzj hwa hwb]

/-- Entry (r, j) of the message depends on row r of the two inputs only: two inputs that agree on the row give the
    same entry, whatever their numbers of rows. -/
theorem msgSplit_congr {R R' : Nat} (xi xj : Mat R 16) (xi' xj' : Mat R' 16) (wa wb : Mat 16 32) (w1 w2 : Mat 32 32)
    (b0 b1 b2 : Mat 1 32) (wm : Mat 32 16)
    (i : (⟨2, ![R, 16]⟩ : Shape).Idx) (i' : (⟨2, ![R', 16]⟩ : Shape).Idx) (h1 : i 1 = i' 1)
    (hxi : ∀ k : Fin 16, xi (ix2 (i 0) k) = xi' (ix2 (i' 0) k))
    (hxj : ∀ k : Fin 16, xj (ix2 (i 0) k) = xj' (ix2 (i' 0) k)) :
    msgSplit xi xj wa wb w1 w2 b0 b1 b2 wm i = msgSplit xi' xj' wa wb w1 w2 b0 b1 b2 wm i' := by
  unfold msgSplit act
  refine congrArg Ideal.tanh (mm_congr i i' (fun k => ?_) (fun k => by rw [h1]))
  refine congrArg Ideal.tanh (lin_congr _ _ rfl (fun k2 => ?_) rfl rfl)
  refine congrArg Ideal.tanh (lin_congr _ _ rfl (fun k3 => ?_) rfl rfl)
  refine congrArg Ideal.tanh ?_
  unfold lin2
  exact congrArg₂ (· + ·) (congrArg₂ (· + ·) (mm_congr _ _ (fun k4 => hxi k4) (fun _ => rfl))
    (mm_congr _ _ (fun k4 => hxj k4) (fun _ => rfl))) rfl

/-- The network as the kernel is handed its operands: the two later weights as the slabs of one [2, 32, 32] array, the
    three biases as the rows of one [3, 32] array. -/
def net {R : Nat} (xi xj : Mat R 16) (wa wb : Mat 16 32) (wr : (⟨3, ![2, 32, 32]⟩ : Shape).Idx → EReal) (b : Mat 3 32)
    (wm : Mat 32 16) : Mat R 16 :=
  msgSplit xi xj wa wb (fun i => wr (ix3 (0 : Fin 2) (i 0) (i 1))) (fun i => wr (ix3 (1 : Fin 2) (i 0) (i 1)))
    (fun i => b (ix2 (0 : Fin 3) (i 1))) (fun i => b (ix2 (1 : Fin 3) (i 1))) (fun i => b (ix2 (2 : Fin 3) (i 1))) wm

/-- Its entry (r, j) depends on row r of the two inputs only. -/
theorem net_congr {R R' : Nat} (xi xj : Mat R 16) (xi' xj' : Mat R' 16) (wa wb : Mat 16 32)
    (wr : (⟨3, ![2, 32, 32]⟩ : Shape).Idx → EReal) (b : Mat 3 32) (wm : Mat 32 16)
    (i : (⟨2, ![R, 16]⟩ : Shape).Idx) (i' : (⟨2, ![R', 16]⟩ : Shape).Idx) (h1 : (i 1).val = (i' 1).val)
    (hxi : ∀ k : Fin 16, xi (ix2 (i 0) k) = xi' (ix2 (i' 0) k))
    (hxj : ∀ k : Fin 16, xj (ix2 (i 0) k) = xj' (ix2 (i' 0) k)) :
    net xi xj wa wb wr b wm i = net xi' xj' wa wb wr b wm i' :=
  msgSplit_congr xi xj xi' xj' wa wb _ _ _ _ _ wm i i' (Fin.ext h1) hxi hxj

end Cert.EdgeNet

end
-- ==== Proof.KernelBody.lean ====
/-
  What one grid point of the edge kernel leaves in its output block.

  The body loads a block of 16000 edges' two feature rows (xi, xj), the two halves Wa, Wb of the first weight, the
  two later weights as slabs of a [2, 32, 32] array, the three bias rows of a [3, 32] array and the projection Wm,
  and stores  tanh (tanh (tanh (tanh (xi·Wa + xj·Wb + b0)·W1 + b1)·W2 + b2)·Wm).  Each product is a matrix unit's
  product into a zero accumulator, which at an entry is the plain sum over the contracted axis; a bias row reaches
  every row of the block through a cast to a vector, a cast back to a one-row matrix and a broadcast down the rows,
  which at entry (r, j) reads the row's entry j; a weight slab is cast from [1, 32, 32] to [32, 32] keeping the
  two coordinates.  So the block is the split form of the edge network (Spec) of the loaded blocks.
-/
import proofs.«171329_j52656299049059_2_alg».proof.Proof.Gen.KernelIdeal.Frame
import proofs.«171329_j52656299049059_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Dense Cert.EdgeNet

/-! ## The three products' operand indices, coordinate by coordinate -/

theorem d16_l0 (i q) : (dot_S16000x16_S16x32_S16000x32_1_0_0_1_n_n.lhsIdx i q 0).val = (i 0).val := by
  unfold DotDims.lhsIdx
  rw [dif_neg (show ¬(0 : Fin S16000x16.rank) ∈ dot_S16000x16_S16x32_S16000x32_1_0_0_1_n_n.lhsBatch by decide), dif_pos (show (0 : Fin S16000x16.rank) ∈ dot_S16000x16_S16x32_S16000x32_1_0_0_1_n_n.lhsNonContracting by decide)]
  rfl
theorem d16_l1 (i q) : (dot_S16000x16_S16x32_S16000x32_1_0_0_1_n_n.lhsIdx i q 1).val = (q ⟨0, by decide⟩).val :=
  dot_S16000x16_S16x32_S16000x32_1_0_0_1_n_n.lhsIdx_val_of_single rfl i q
theorem d16_r0 (i q) : (dot_S16000x16_S16x32_S16000x32_1_0_0_1_n_n.rhsIdx i q 0).val = (q ⟨0, by decide⟩).val :=
  dot_S16000x16_S16x32_S16000x32_1_0_0_1_n_n.rhsIdx_val_of_single rfl i q
theorem d16_r1 (i q) : (dot_S16000x16_S16x32_S16000x32_1_0_0_1_n_n.rhsIdx i q 1).val = (i 1).val := by
  unfold DotDims.rhsIdx
  rw [dif_neg (show ¬(1 : Fin S16x32.rank) ∈ dot_S16000x16_S16x32_S16000x32_1_0_0_1_n_n.rhsBatch by decide), dif_pos (show (1 : Fin S16x32.rank) ∈ dot_S16000x16_S16x32_S16000x32_1_0_0_1_n_n.rhsNonContracting by decide)]
  rfl

theorem d32_l0 (i q) : (dot_S16000x32_S32x32_S16000x32_1_0_0_1_n_n.lhsIdx i q 0).val = (i 0).val := by
  unfold DotDims.lhsIdx
  rw [dif_neg (show ¬(0 : Fin S16000x32.rank) ∈ dot_S16000x32_S32x32_S16000x32_1_0_0_1_n_n.lhsBatch by decide), dif_pos (show (0 : Fin S16000x32.rank) ∈ dot_S16000x32_S32x32_S16000x32_1_0_0_1_n_n.lhsNonContracting by decide)]
  rfl
theorem d32_l1 (i q) : (dot_S16000x32_S32x32_S16000x32_1_0_0_1_n_n.lhsIdx i q 1).val = (q ⟨0, by decide⟩).val :=
  dot_S16000x32_S32x32_S16000x32_1_0_0_1_n_n.lhsIdx_val_of_single rfl i q
theorem d32_r0 (i q) : (dot_S16000x32_S32x32_S16000x32_1_0_0_1_n_n.rhsIdx i q 0).val = (q ⟨0, by decide⟩).val :=
  dot_S16000x32_S32x32_S16000x32_1_0_0_1_n_n.rhsIdx_val_of_single rfl i q
theorem d32_r1 (i q) : (dot_S16000x32_S32x32_S16000x32_1_0_0_1_n_n.rhsIdx i q 1).val = (i 1).val := by
  unfold DotDims.rhsIdx
  rw [dif_neg (show ¬(1 : Fin S32x32.rank) ∈ dot_S16000x32_S32x32_S16000x32_1_0_0_1_n_n.rhsBatch by decide), dif_pos (show (1 : Fin S32x32.rank) ∈ dot_S16000x32_S32x32_S16000x32_1_0_0_1_n_n.rhsNonContracting by decide)]
  rfl

theorem dm_l0 (i q) : (dot_S16000x32_S32x16_S16000x16_1_0_0_1_n_n.lhsIdx i q 0).val = (i 0).val := by
  unfold DotDims.lhsIdx
  rw [dif_neg (show ¬(0 : Fin S16000x32.rank) ∈ dot_S16000x32_S32x16_S16000x16_1_0_0_1_n_n.lhsBatch by decide), dif_pos (show (0 : Fin S16000x32.rank) ∈ dot_S16000x32_S32x16_S16000x16_1_0_0_1_n_n.lhsNonContracting by decide)]
  rfl
theorem dm_l1 (i q) : (dot_S16000x32_S32x16_S16000x16_1_0_0_1_n_n.lhsIdx i q 1).val = (q ⟨0, by decide⟩).val :=
  dot_S16000x32_S32x16_S16000x16_1_0_0_1_n_n.lhsIdx_val_of_single rfl i q
theorem dm_r0 (i q) : (dot_S16000x32_S32x16_S16000x16_1_0_0_1_n_n.rhsIdx i q 0).val = (q ⟨0, by decide⟩).val :=
  dot_S16000x32_S32x16_S16000x16_1_0_0_1_n_n.rhsIdx_val_of_single rfl i q
theorem dm_r1 (i q) : (dot_S16000x32_S32x16_S16000x16_1_0_0_1_n_n.rhsIdx i q 1).val = (i 1).val := by
  unfold DotDims.rhsIdx
  rw [dif_neg (show ¬(1 : Fin S32x16.rank) ∈ dot_S16000x32_S32x16_S16000x16_1_0_0_1_n_n.rhsBatch by decide), dif_pos (show (1 : Fin S32x16.rank) ∈ dot_S16000x32_S32x16_S16000x16_1_0_0_1_n_n.rhsNonContracting by decide)]
  rfl

/-- A 16-term product into the zero accumulator is the textbook product. -/
theorem mm16 (a : FVec Ideal S16000x16 .f32) (b : FVec Ideal S16x32 .f32) :
    matmul dot_S16000x16_S16x32_S16000x32_1_0_0_1_n_n (some .fp32) a b (constant (F := Ideal) S16000x32 .f32 0x00000000#32)
      = mm a b :=
  funext fun j => matmul_zero_eq dot_S16000x16_S16x32_S16000x32_1_0_0_1_n_n rfl rfl d16_l0 d16_l1 d16_r0 d16_r1 _ a b j

/-- A 32-term product between hidden layers. -/
theorem mm32 (a : FVec Ideal S16000x32 .f32) (b : FVec Ideal S32x32 .f32) :
    matmul dot_S16000x32_S32x32_S16000x32_1_0_0_1_n_n (some .fp32) a b (constant (F := Ideal) S16000x32 .f32 0x00000000#32)
      = mm a b :=
  funext fun j => matmul_zero_eq dot_S16000x32_S32x32_S16000x32_1_0_0_1_n_n rfl rfl d32_l0 d32_l1 d32_r0 d32_r1 _ a b j

/-- The projection to sixteen outputs. -/
theorem mmOut (a : FVec Ideal S16000x32 .f32) (b : FVec Ideal S32x16 .f32) :
    matmul dot_S16000x32_S32x16_S16000x16_1_0_0_1_n_n (some .fp32) a b (constant (F := Ideal) S16000x16 .f32 0x00000000#32)
      = mm a b :=
  funext fun j => matmul_zero_eq dot_S16000x32_S32x16_S16000x16_1_0_0_1_n_n rfl rfl dm_l0 dm_l1 dm_r0 dm_r1 _ a b j

theorem zeros2 : (![0, 0] : Fin 2 → Nat) = fun _ => 0 := funext fun a => by fin_cases a <;> rfl

/-- A one-row matrix cast to a vector, cast back and broadcast down 16000 rows reads, at (r, j), the row's entry j. -/
theorem bias_rows (v : Vec Ideal S1x32 .f32) :
    broadcastTo S16000x32 (shapeCast S1x32 (shapeCast S32 v shapeCasts_S1x32_S32) shapeCasts_S32_S1x32) broadcasts_S1x32_S16000x32
      = fun i => v (ix2 (0 : Fin 1) (i 1)) := by
  funext i
  rw [broadcastTo_apply _ broadcasts_S1x32_S16000x32 i (ix2 (0 : Fin 1) (i 1)) (fun a => match a with
      | ⟨0, _⟩ => by show (0 : Nat) = if (1 : Nat) = 1 then 0 else _; rw [if_pos rfl]
      | ⟨1, _⟩ => by show (i 1).val = if (32 : Nat) = 1 then 0 else (i 1).val; rw [if_neg (by decide)]),
    shapeCast_apply _ shapeCasts_S32_S1x32 (ix2 (0 : Fin 1) (i 1)) (ix1 (i 1))
      (by rw [Shape.rowMajor_val_one, Shape.rowMajor_val_two]; show (i 1).val = 0 * 32 + (i 1).val; omega),
    shapeCast_apply _ shapeCasts_S1x32_S32 (ix1 (i 1)) (ix2 (0 : Fin 1) (i 1))
      (by rw [Shape.rowMajor_val_one, Shape.rowMajor_val_two]; show 0 * 32 + (i 1).val = (i 1).val; omega)]

/-- Row l of the [3, 32] bias array, loaded as a one-row matrix, read at its entry j. -/
theorem bias_row0 (x5 : Vec Ideal S3x32 .f32) (j : Fin 32) : View.ld x5 r0_2 (ix2 (0 : Fin 1) j) = x5 (ix2 (0 : Fin 3) j) :=
  congrArg x5 (funext fun a => Fin.ext (match a with
    | ⟨0, _⟩ => by show 0 + 1 * 0 = 0; rfl
    | ⟨1, _⟩ => by show 0 + 1 * j.val = j.val; omega))
theorem bias_row1 (x5 : Vec Ideal S3x32 .f32) (j : Fin 32) : View.ld x5 r0_4 (ix2 (0 : Fin 1) j) = x5 (ix2 (1 : Fin 3) j) :=
  congrArg x5 (funext fun a => Fin.ext (match a with
    | ⟨0, _⟩ => by show 1 + 1 * 0 = 1; rfl
    | ⟨1, _⟩ => by show 0 + 1 * j.val = j.val; omega))
theorem bias_row2 (x5 : Vec Ideal S3x32 .f32) (j : Fin 32) : View.ld x5 r0_6 (ix2 (0 : Fin 1) j) = x5 (ix2 (2 : Fin 3) j) :=
  congrArg x5 (funext fun a => Fin.ext (match a with
    | ⟨0, _⟩ => by show 2 + 1 * 0 = 2; rfl
    | ⟨1, _⟩ => by show 0 + 1 * j.val = j.val; omega))

/-- Bias row l as the body spreads it down the block: at (r, j), entry (l, j) of the bias array. -/
theorem bias0 (x5 : Vec Ideal S3x32 .f32) :
    broadcastTo S16000x32 (shapeCast S1x32 (shapeCast S32 (View.ld x5 r0_2) shapeCasts_S1x32_S32) shapeCasts_S32_S1x32) broadcasts_S1x32_S16000x32
      = fun i => x5 (ix2 (0 : Fin 3) (i 1)) :=
  (bias_rows (View.ld x5 r0_2)).trans (funext fun i => bias_row0 x5 (i 1))
theorem bias1 (x5 : Vec Ideal S3x32 .f32) :
    broadcastTo S16000x32 (shapeCast S1x32 (shapeCast S32 (View.ld x5 r0_4) shapeCasts_S1x32_S32) shapeCasts_S32_S1x32) broadcasts_S1x32_S16000x32
      = fun i => x5 (ix2 (1 : Fin 3) (i 1)) :=
  (bias_rows (View.ld x5 r0_4)).trans (funext fun i => bias_row1 x5 (i 1))
theorem bias2 (x5 : Vec Ideal S3x32 .f32) :
    broadcastTo S16000x32 (shapeCast S1x32 (shapeCast S32 (View.ld x5 r0_6) shapeCasts_S1x32_S32) shapeCasts_S32_S1x32) broadcasts_S1x32_S16000x32
      = fun i => x5 (ix2 (2 : Fin 3) (i 1)) :=
  (bias_rows (View.ld x5 r0_6)).trans (funext fun i => bias_row2 x5 (i 1))

/-- Slab l of the [2, 32, 32] weight array, loaded as [1, 32, 32] and cast to [32, 32], read at (k, j). -/
theorem slab0 (x4 : Vec Ideal S2x32x32 .f32) :
    shapeCast S32x32 (View.ld x4 r0_3) shapeCasts_S1x32x32_S32x32 = fun i => x4 (ix3 (0 : Fin 2) (i 0) (i 1)) := by
  funext i
  rw [shapeCast_apply _ shapeCasts_S1x32x32_S32x32 i (ix3 (0 : Fin 1) (i 0) (i 1))
    (by rw [Shape.rowMajor_val_three, Shape.rowMajor_val_two]; show (0 * 32 + (i 0).val) * 32 + (i 1).val = (i 0).val * 32 + (i 1).val; omega)]
  exact congrArg x4 (funext fun a => Fin.ext (match a with
    | ⟨0, _⟩ => by show 0 + 1 * 0 = 0; rfl
    | ⟨1, _⟩ => by show 0 + 1 * (i 0).val = (i 0).val; omega
    | ⟨2, _⟩ => by show 0 + 1 * (i 1).val = (i 1).val; omega))
theorem slab1 (x4 : Vec Ideal S2x32x32 .f32) :
    shapeCast S32x32 (View.ld x4 r0_5) shapeCasts_S1x32x32_S32x32 = fun i => x4 (ix3 (1 : Fin 2) (i 0) (i 1)) := by
  funext i
  rw [shapeCast_apply _ shapeCasts_S1x32x32_S32x32 i (ix3 (0 : Fin 1) (i 0) (i 1))
    (by rw [Shape.rowMajor_val_three, Shape.rowMajor_val_two]; show (0 * 32 + (i 0).val) * 32 + (i 1).val = (i 0).val * 32 + (i 1).val; omega)]
  exact congrArg x4 (funext fun a => Fin.ext (match a with
    | ⟨0, _⟩ => by show 1 + 1 * 0 = 1; rfl
    | ⟨1, _⟩ => by show 0 + 1 * (i 0).val = (i 0).val; omega
    | ⟨2, _⟩ => by show 0 + 1 * (i 1).val = (i 1).val; omega))

/-- The output block after the body is the split form of the edge network of the loaded blocks. -/
theorem out_eq (x0 x1 : Vec Ideal S16000x16 .f32) (x2 x3 : Vec Ideal S16x32 .f32) (x4 : Vec Ideal S2x32x32 .f32)
    (x5 : Vec Ideal S3x32 .f32) (x6 : Vec Ideal S32x16 .f32) :
    out0_7 x0 x1 x2 x3 x4 x5 x6 = net x0 x1 x2 x3 x4 x5 x6 := by
  unfold out0_7 net
  rw [View.canon_unit_zero zeros2]
  simp only [View.ld_unit_zero (S := S16000x16) zeros2, View.ld_unit_zero (S := S16x32) zeros2, View.ld_unit_zero (S := S32x16) zeros2]
  unfold k0_pay1 k0_pay2
  simp only [shapeCast_self, mm16, mm32, mmOut]
  rw [bias0 x5, bias1 x5, bias2 x5, slab0 x4, slab1 x4]
  unfold msgSplit act lin lin2
  rfl

end Cert.KernelIdeal.Body

end
-- ==== Proof.KernelBlocks.lean ====
/-
  From blocks to the array: what the message array holds after the kernel's 200 grid points.

  Grid point t loads rows 16000·t … 16000·t + 15999 of the two gathered feature arrays and the five weight and
  bias arrays whole, and writes back rows 16000·t … 16000·t + 15999 of the message array.  Entry (r, j) of the
  network depends on row r of the features only, so what point t writes back is block t of the network of the WHOLE
  feature arrays; the 200 blocks tile the 3,200,000 rows, so the array ends as that network.
-/
import proofs.«171329_j52656299049059_2_alg».proof.Proof.KernelBody

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Dense Cert.EdgeNet
open Idealize.ShloMosaic.Pipeline (Dat)

variable (m : (ℓ : Loc nD τ sig) → Buf (Elt Ideal) ℓ)

/-- The printed index maps over the grid: the two feature windows and the output move one block of rows per point,
    the five weight and bias windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A block's entry is the network of the whole arrays at the row the block's row sits at, when the block's two
    feature inputs are those rows of the whole feature arrays. -/
theorem block_rows (X0 X1 : S3200000x16.Idx → EReal)
    (x0 x1 : Vec Ideal S16000x16 .f32) (x2 x3 : Vec Ideal S16x32 .f32) (x4 : Vec Ideal S2x32x32 .f32)
    (x5 : Vec Ideal S3x32 .f32) (x6 : Vec Ideal S32x16 .f32) (W2 W3 : S16x32.Idx → EReal) (W4 : S2x32x32.Idx → EReal)
    (W5 : S3x32.Idx → EReal) (W6 : S32x16.Idx → EReal)
    (j : S16000x16.Idx) (i : S3200000x16.Idx) (h1 : (j 1).val = (i 1).val)
    (h0 : ∀ k : Fin 16, x0 (ix2 (j 0) k) = X0 (ix2 (i 0) k)) (h0' : ∀ k : Fin 16, x1 (ix2 (j 0) k) = X1 (ix2 (i 0) k))
    (e2 : ∀ y, x2 y = W2 y) (e3 : ∀ y, x3 y = W3 y) (e4 : ∀ y, x4 y = W4 y) (e5 : ∀ y, x5 y = W5 y) (e6 : ∀ y, x6 y = W6 y) :
    out0_7 x0 x1 x2 x3 x4 x5 x6 j = net X0 X1 W2 W3 W4 W5 W6 i := by
  obtain rfl : x2 = W2 := funext e2
  obtain rfl : x3 = W3 := funext e3
  obtain rfl : x4 = W4 := funext e4
  obtain rfl : x5 = W5 := funext e5
  obtain rfl : x6 = W6 := funext e6
  rw [Body.out_eq]
  exact net_congr x0 x1 X0 X1 x2 x3 x4 x5 x6 j i h1 h0 h0'

/-- The message array as one function of the arrays the region finds. -/
def msgArr (c : Dev nD) : S3200000x16.Idx → EReal :=
  net (V m c main_v10) (V m c main_v17) (V m c main_v19) (V m c main_v21) (V m c main_v22) (V m c main_arg4) (V m c main_arg5)

set_option maxHeartbeats 4000000 in
/-- What point t writes back is block t of `msgArr`. -/
theorem flushed_eq (c : Dev nD) (t : Fin cfg0.N) :
    (dats m 0 c).flushed 7 t = ((cfg0.win 7).blk t).view.read (Elt Ideal) (msgArr m c) := by
  show (cfg0.win 7).cut (grid0.coords t) ((dats m 0 c).after 7 t) = _
  rw [after0_7]
  obtain ⟨a00, a01, a10, a11, a20, a21, a30, a31, a40, a41, a42, a50, a51, a60, a61, a70, a71⟩ := idx_facts t
  funext j
  have hj0 : (j 0).val < 16000 := (j 0).isLt
  have hj1 : (j 1).val < 16 := (j 1).isLt
  refine block_rows (V m c main_v10) (V m c main_v17) (iblk m c 0 t) (iblk m c 1 t) (iblk m c 2 t) (iblk m c 3 t)
    (iblk m c 4 t) (iblk m c 5 t) (iblk m c 6 t) (V m c main_v19) (V m c main_v21) (V m c main_v22) (V m c main_arg4)
    (V m c main_arg5) j (((cfg0.win 7).blk t).view.emb j) ?_ (fun k => ?_) (fun k => ?_) (fun y => ?_) (fun y => ?_)
    (fun y => ?_) (fun y => ?_) (fun y => ?_)
  · show (j 1).val = win0_7.index t (1 : Fin 2) * 16 + 1 * (j 1).val
    omega
  · show V m c main_v10 (((cfg0.win 0).blk t).view.emb (ix2 (j 0) k)) = V m c main_v10 (ix2 ((((cfg0.win 7).blk t).view.emb j) 0) k)
    refine congrArg _ (funext fun a => Fin.ext ?_)
    match a with
    | ⟨0, _⟩ => show win0_0.index t (0 : Fin 2) * 16000 + 1 * (j 0).val = win0_7.index t (0 : Fin 2) * 16000 + 1 * (j 0).val; omega
    | ⟨1, _⟩ => show win0_0.index t (1 : Fin 2) * 16 + 1 * k.val = k.val; omega
  · show V m c main_v17 (((cfg0.win 1).blk t).view.emb (ix2 (j 0) k)) = V m c main_v17 (ix2 ((((cfg0.win 7).blk t).view.emb j) 0) k)
    refine congrArg _ (funext fun a => Fin.ext ?_)
    match a with
    | ⟨0, _⟩ => show win0_1.index t (0 : Fin 2) * 16000 + 1 * (j 0).val = win0_7.index t (0 : Fin 2) * 16000 + 1 * (j 0).val; omega
    | ⟨1, _⟩ => show win0_1.index t (1 : Fin 2) * 16 + 1 * k.val = k.val; omega
  · show V m c main_v19 (((cfg0.win 2).blk t).view.emb y) = V m c main_v19 y
    refine congrArg _ (funext fun a => Fin.ext ?_)
    match a with
    | ⟨0, _⟩ => show win0_2.index t (0 : Fin 2) * 16 + 1 * (y 0).val = (y 0).val; omega
    | ⟨1, _⟩ => show win0_2.index t (1 : Fin 2) * 32 + 1 * (y 1).val = (y 1).val; omega
  · show V m c main_v21 (((cfg0.win 3).blk t).view.emb y) = V m c main_v21 y
    refine congrArg _ (funext fun a => Fin.ext ?_)
    match a with
    | ⟨0, _⟩ => show win0_3.index t (0 : Fin 2) * 16 + 1 * (y 0).val = (y 0).val; omega
    | ⟨1, _⟩ => show win0_3.index t (1 : Fin 2) * 32 + 1 * (y 1).val = (y 1).val; omega
  · show V m c main_v22 (((cfg0.win 4).blk t).view.emb y) = V m c main_v22 y
    refine congrArg _ (funext fun a => Fin.ext ?_)
    match a with
    | ⟨0, _⟩ => show win0_4.index t (0 : Fin 3) * 2 + 1 * (y 0).val = (y 0).val; omega
    | ⟨1, _⟩ => show win0_4.index t (1 : Fin 3) * 32 + 1 * (y 1).val = (y 1).val; omega
    | ⟨2, _⟩ => show win0_4.index t (2 : Fin 3) * 32 + 1 * (y 2).val = (y 2).val; omega
  · show V m c main_arg4 (((cfg0.win 5).blk t).view.emb y) = V m c main_arg4 y
    refine congrArg _ (funext fun a => Fin.ext ?_)
    match a with
    | ⟨0, _⟩ => show win0_5.index t (0 : Fin 2) * 3 + 1 * (y 0).val = (y 0).val; omega
    | ⟨1, _⟩ => show win0_5.index t (1 : Fin 2) * 32 + 1 * (y 1).val = (y 1).val; omega
  · show V m c main_arg5 (((cfg0.win 6).blk t).view.emb y) = V m c main_arg5 y
    refine congrArg _ (funext fun a => Fin.ext ?_)
    match a with
    | ⟨0, _⟩ => show win0_6.index t (0 : Fin 2) * 32 + 1 * (y 0).val = (y 0).val; omega
    | ⟨1, _⟩ => show win0_6.index t (1 : Fin 2) * 16 + 1 * (y 1).val = (y 1).val; omega

/-- An index of the message array is in point t's block iff each coordinate is in the block's range. -/
theorem mem_blk (t : Fin cfg0.N) (i : S3200000x16.Idx) :
    i ∈ ((cfg0.win 7).blk t).view.set ↔ ∀ a : Fin 2, win0_7.index t a * S16000x16.size a ≤ (i a).val ∧ (i a).val < win0_7.index t a * S16000x16.size a + S16000x16.size a := by
  show i ∈ ((View.whole main_v23).slice (win0_7.rect t)).set ↔ _
  rw [View.set_slice_whole, Rect.mem_set_unit]
  exact Iff.rfl

/-- Row r is in the block of point r / 16000: the 200 blocks tile the array. -/
theorem cover (i : S3200000x16.Idx) : ∃ t : Fin cfg0.N, (cfg0.win 7).flush t = true ∧ i ∈ ((cfg0.win 7).blk t).view.set := by
  have hi0 : (i 0).val < 3200000 := (i 0).isLt
  have hi1 : (i 1).val < 16 := (i 1).isLt
  refine ⟨⟨(i 0).val / 16000, by show (i 0).val / 16000 < 200; omega⟩, flush0_7 _, ?_⟩
  rw [mem_blk]
  obtain ⟨-, -, -, -, -, -, -, -, -, -, -, -, -, -, -, a70, a71⟩ := idx_facts ⟨(i 0).val / 16000, by show (i 0).val / 16000 < 200; omega⟩
  intro a
  match a with
  | ⟨0, _⟩ =>
    show win0_7.index _ (0 : Fin 2) * 16000 ≤ (i 0).val ∧ (i 0).val < win0_7.index _ (0 : Fin 2) * 16000 + 16000
    rw [a70]; show (i 0).val / 16000 * 16000 ≤ (i 0).val ∧ (i 0).val < (i 0).val / 16000 * 16000 + 16000; omega
  | ⟨1, _⟩ =>
    show win0_7.index _ (1 : Fin 2) * 16 ≤ (i 1).val ∧ (i 1).val < win0_7.index _ (1 : Fin 2) * 16 + 16
    rw [a71]; omega

/-- The message array after the run. -/
theorem final (c : Dev nD) : (dats m 0 c).arrAt 7 cfg0.N = msgArr m c :=
  (dats m 0 c).arrAt_eq_of_cover 7 (msgArr m c) (fun t _ => flushed_eq m c t) (cover)

end Cert.KernelIdeal.Blocks

end
-- ==== Proof.KernelHost.lean ====
/-
  The arrays the kernel's region is handed, as the host lines before it compute them from the arguments.

  The two gathered feature arrays are the gathers x[row], x[col] of the node features at the two rows of the edge
  list (a negative index wrapped once), spelled operation for operation as the reference spells them.
  The first layer's weight reaches the kernel as its two halves, rows 0–15 and rows 16–31 of W_phi[0], and the two
  later weights as the slab W_phi[1:3]; each is a slice (and a cast dropping a unit axis) of the one weight argument,
  read here at an index.
-/
import proofs.«171329_j52656299049059_2_alg».proof.Proof.Gen.KernelIdeal.Frame
import proofs.«171329_j52656299049059_2_alg».proof.Proof.Gen.ReferenceIdeal.Read
import proofs.«171329_j52656299049059_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.EdgeNet

variable (m : (ℓ : Loc nD τ sig) → Buf (Elt Ideal) ℓ)

set_option maxHeartbeats 2000000 in
/-- The features gathered at the edges' first end, x[row]. -/
theorem V_v10 (c : Dev nD) : V m c main_v10
    = Cert.ReferenceIdeal.Read.val_main_v10 (F := Ideal) (m ((c : Thread nD τ).loc main_arg0)) (m ((c : Thread nD τ).loc main_arg1)) := by
  dsimp only [V, V0]
  simp only [hostOps0, List.flatten_cons, List.flatten_nil, List.append_nil]
  after_results
  rfl

set_option maxHeartbeats 2000000 in
/-- The features gathered at the edges' second end, x[col]. -/
theorem V_v17 (c : Dev nD) : V m c main_v17
    = Cert.ReferenceIdeal.Read.val_main_v17 (F := Ideal) (m ((c : Thread nD τ).loc main_arg0)) (m ((c : Thread nD τ).loc main_arg1)) := by
  dsimp only [V, V0]
  simp only [hostOps0, List.flatten_cons, List.flatten_nil, List.append_nil]
  after_results
  rfl

set_option maxHeartbeats 2000000 in
/-- The first row of the edge list, the scatter's segment ids. -/
theorem V_v1 (c : Dev nD) : V m c main_v1
    = Cert.ReferenceIdeal.Read.val_main_v1 (F := Ideal) (m ((c : Thread nD τ).loc main_arg1)) := by
  dsimp only [V, V0]
  simp only [hostOps0, List.flatten_cons, List.flatten_nil, List.append_nil]
  after_results
  rfl

/-- Rows 0–15 of W_phi[0]. -/
def wA (a3 : S3x32x32.Idx → EReal) : S16x32.Idx → EReal :=
  shapeCast S16x32 (extractStridedSlice S1x16x32 ![0, 0, 0] a3 slices_S3x32x32_S1x16x32_0_0_0) shapeCasts_S1x16x32_S16x32
/-- Rows 16–31 of W_phi[0]. -/
def wB (a3 : S3x32x32.Idx → EReal) : S16x32.Idx → EReal :=
  shapeCast S16x32 (extractStridedSlice S1x16x32 ![0, 16, 0] a3 slices_S3x32x32_S1x16x32_0_16_0) shapeCasts_S1x16x32_S16x32
/-- W_phi[1:3]. -/
def wR (a3 : S3x32x32.Idx → EReal) : S2x32x32.Idx → EReal :=
  extractStridedSlice S2x32x32 ![1, 0, 0] a3 slices_S3x32x32_S2x32x32_1_0_0

set_option maxHeartbeats 2000000 in
theorem V_v19 (c : Dev nD) : V m c main_v19 = wA (m ((c : Thread nD τ).loc main_arg3)) := by
  dsimp only [V, V0]
  simp only [hostOps0, List.flatten_cons, List.flatten_nil, List.append_nil]
  after_results
  rfl
set_option maxHeartbeats 2000000 in
theorem V_v21 (c : Dev nD) : V m c main_v21 = wB (m ((c : Thread nD τ).loc main_arg3)) := by
  dsimp only [V, V0]
  simp only [hostOps0, List.flatten_cons, List.flatten_nil, List.append_nil]
  after_results
  rfl
set_option maxHeartbeats 2000000 in
theorem V_v22 (c : Dev nD) : V m c main_v22 = wR (m ((c : Thread nD τ).loc main_arg3)) := by
  dsimp only [V, V0]
  simp only [hostOps0, List.flatten_cons, List.flatten_nil, List.append_nil]
  after_results
  rfl

theorem wA_apply (a3 : S3x32x32.Idx → EReal) (k : Fin 16) (j : Fin 32) : wA a3 (ix2 k j) = a3 (ix3 (0 : Fin 3) (lo k) j) := by
  unfold wA
  rw [shapeCast_apply _ shapeCasts_S1x16x32_S16x32 (ix2 k j) (ix3 (0 : Fin 1) k j)
      (by rw [Shape.rowMajor_val_three, Shape.rowMajor_val_two]; show (0 * 16 + k.val) * 32 + j.val = k.val * 32 + j.val; omega),
    extractStridedSlice_apply ![0, 0, 0] a3 slices_S3x32x32_S1x16x32_0_0_0 (ix3 (0 : Fin 1) k j) (ix3 (0 : Fin 3) (lo k) j)
      (fun a => match a with
        | ⟨0, _⟩ => by show 0 = 0 + 0; rfl
        | ⟨1, _⟩ => by show k.val = 0 + k.val; omega
        | ⟨2, _⟩ => by show j.val = 0 + j.val; omega)]

theorem wB_apply (a3 : S3x32x32.Idx → EReal) (k : Fin 16) (j : Fin 32) : wB a3 (ix2 k j) = a3 (ix3 (0 : Fin 3) (hi k) j) := by
  unfold wB
  rw [shapeCast_apply _ shapeCasts_S1x16x32_S16x32 (ix2 k j) (ix3 (0 : Fin 1) k j)
      (by rw [Shape.rowMajor_val_three, Shape.rowMajor_val_two]; show (0 * 16 + k.val) * 32 + j.val = k.val * 32 + j.val; omega),
    extractStridedSlice_apply ![0, 16, 0] a3 slices_S3x32x32_S1x16x32_0_16_0 (ix3 (0 : Fin 1) k j) (ix3 (0 : Fin 3) (hi k) j)
      (fun a => match a with
        | ⟨0, _⟩ => by show 0 = 0 + 0; rfl
        | ⟨1, _⟩ => by show 16 + k.val = 16 + k.val; rfl
        | ⟨2, _⟩ => by show j.val = 0 + j.val; omega)]

theorem wR_apply (a3 : S3x32x32.Idx → EReal) (l : Fin 2) (k j : Fin 32) :
    wR a3 (ix3 l k j) = a3 (ix3 (⟨1 + l.val, by have := l.isLt; omega⟩ : Fin 3) k j) := by
  unfold wR
  exact extractStridedSlice_apply ![1, 0, 0] a3 slices_S3x32x32_S2x32x32_1_0_0 (ix3 l k j) _
      (fun a => match a with
        | ⟨0, _⟩ => by show 1 + l.val = 1 + l.val; rfl
        | ⟨1, _⟩ => by show k.val = 0 + k.val; omega
        | ⟨2, _⟩ => by show j.val = 0 + j.val; omega)

end Cert.KernelIdeal.HostSide

end
-- ==== Proof.KernelTail.lean ====
/-
  The host lines after the kernel: from the message array to the result.

  Messages are summed into their first end node (a scatter-add over the edge list's first row); a node's value is
  x · Wg[0:16] + aggr · Wg[16:32] + bg, the node projection with the node's own features and its summed messages
  kept apart; node values are summed per graph and divided by the graph's node count, floored at one.
-/
import proofs.«171329_j52656299049059_2_alg».proof.Proof.KernelBlocks
import proofs.«171329_j52656299049059_2_alg».proof.Proof.KernelHost

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx Cert.Dense Cert.EdgeNet

/-- Rows 0–15 and rows 16–31 of the node projection's weight. -/
def gT (a6 : FVec Ideal S32x1 .f32) : FVec Ideal S16x1 .f32 := extractStridedSlice S16x1 ![0, 0] a6 slices_S32x1_S16x1_0_0
def gB (a6 : FVec Ideal S32x1 .f32) : FVec Ideal S16x1 .f32 := extractStridedSlice S16x1 ![16, 0] a6 slices_S32x1_S16x1_16_0

/-- The messages summed into their first end node. -/
def aggr (msg : FVec Ideal S3200000x16 .f32) (row : (⟨S3200000, .i32⟩ : BufTy).Contents (Elt Ideal)) : FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 row) msg

/-- A node's value, its own features and its summed messages kept apart. -/
def node (msg : FVec Ideal S3200000x16 .f32) (row : (⟨S3200000, .i32⟩ : BufTy).Contents (Elt Ideal))
    (a0 : FVec Ideal S100000x16 .f32) (a6 : FVec Ideal S32x1 .f32) (a7 : FVec Ideal S1 .f32) : FVec Ideal S100000x1 .f32 :=
  addf (addf (Host.dotGeneral dot_S100000x16_S16x1_S100000x1_1_0_0_1_n_n (some .fp32) a0 (gT a6))
      (Host.dotGeneral dot_S100000x16_S16x1_S100000x1_1_0_0_1_n_n (some .fp32) (aggr msg row) (gB a6)))
    (broadcastInDim S100000x1 ![0, 1] bcast_S1x1_S100000x1_0_1 (broadcastInDim S1x1 ![1] bcast_S1_S1x1_1 a7))

/-- The mean of the node values over each graph. -/
def pool (nd : FVec Ideal S100000x1 .f32) (a2 : (⟨S100000, .i32⟩ : BufTy).Contents (Elt Ideal)) : FVec Ideal S128x1 .f32 :=
  Host.divf
    (Host.scatterAdd scatter_S128x1_S100000x1_S100000x1_1_0_0_1
      (broadcastInDim S128x1 ![] bcast_S_S128x1 (constant (F := Ideal) S_ .f32 0x00000000#32))
      (broadcastInDim S100000x1 ![0] bcast_S100000_S100000x1_0 a2) nd)
    (maximumf
      (Host.scatterAdd scatter_S128x1_S100000x1_S100000x1_1_0_0_1
        (broadcastInDim S128x1 ![] bcast_S_S128x1 (constant (F := Ideal) S_ .f32 0x00000000#32))
        (broadcastInDim S100000x1 ![0] bcast_S100000_S100000x1_0 a2)
        (broadcastInDim S100000x1 ![] bcast_S_S100000x1 (constant (F := Ideal) S_ .f32 0x3F800000#32)))
      (broadcastInDim S128x1 ![] bcast_S_S128x1 (constant (F := Ideal) S_ .f32 0x3F800000#32)))

variable (m : (ℓ : Loc nD τ sig) → Buf (Elt Ideal) ℓ)

set_option maxHeartbeats 4000000 in
/-- The result buffer after the run: the pooled node values of the kernel's message array. -/
theorem result_eq (c : Dev nD) :
    Pipeline.afterTail₀ cfgs (dats m) 0 (V0 m) [hostOps1] c main_v44
      = pool (node (Blocks.msgArr m c) (V m c main_v1) (m ((c : Thread nD τ).loc main_arg0)) (m ((c : Thread nD τ).loc main_arg6))
          (m ((c : Thread nD τ).loc main_arg7))) (m ((c : Thread nD τ).loc main_arg2)) := by
  have h23 : Pipeline.withArrays (cfgs 0).spec c (V0 m c) (fun w => (dats m 0 c).arrAt w (cfgs 0).N) (Proc.devRef .tc main_v23)
      = Blocks.msgArr m c :=
    (Pipeline.withArrays_arr spec0 launch0.win.arr_inj c _ _ 7).trans (Blocks.final m c)
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have ha0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have ha2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have ha6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  have ha7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  unfold Pipeline.afterTail₀
  simp only [hostOps1, List.flatten_cons, List.flatten_nil, List.append_nil]
  after_results
  rw [h23, h1, ha0, ha2, ha6, ha7]
  rfl

/-! ## The node projection's two products, and its weight halves, at an index -/

theorem dn_l0 (i q) : (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl
theorem dn_l1 (i q) : (dot_S100000x16_S16x1_S100000x1_1_0_0_1_n_n.lhsIdx i q 1).val = (q ⟨0, by decide⟩).val :=
  dot_S100000x16_S16x1_S100000x1_1_0_0_1_n_n.lhsIdx_val_of_single rfl i q
theorem dn_r0 (i q) : (dot_S100000x16_S16x1_S100000x1_1_0_0_1_n_n.rhsIdx i q 0).val = (q ⟨0, by decide⟩).val :=
  dot_S100000x16_S16x1_S100000x1_1_0_0_1_n_n.rhsIdx_val_of_single rfl i q
theorem dn_r1 (i q) : (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

theorem dotNode (l : FVec Ideal S100000x16 .f32) (r : FVec Ideal S16x1 .f32) :
    Host.dotGeneral dot_S100000x16_S16x1_S100000x1_1_0_0_1_n_n (some .fp32) l r = mm l r := by
  funext i
  simp only [Host.dotGeneral]
  exact dotGeneral_eq dot_S100000x16_S16x1_S100000x1_1_0_0_1_n_n rfl rfl dn_l0 dn_l1 dn_r0 dn_r1 _ _ l r i

theorem gT_apply (a6 : FVec Ideal S32x1 .f32) (k : Fin 16) (j : Fin 1) : gT a6 (ix2 k j) = a6 (ix2 (lo k) j) := by
  unfold gT
  exact extractStridedSlice_apply ![0, 0] a6 slices_S32x1_S16x1_0_0 (ix2 k j) (ix2 (lo k) j) (fun a => match a with
    | ⟨0, _⟩ => by show k.val = 0 + k.val; omega
    | ⟨1, _⟩ => by show j.val = 0 + j.val; omega)
theorem gB_apply (a6 : FVec Ideal S32x1 .f32) (k : Fin 16) (j : Fin 1) : gB a6 (ix2 k j) = a6 (ix2 (hi k) j) := by
  unfold gB
  exact extractStridedSlice_apply ![16, 0] a6 slices_S32x1_S16x1_16_0 (ix2 k j) (ix2 (hi k) j) (fun a => match a with
    | ⟨0, _⟩ => by show 16 + k.val = 16 + k.val; rfl
    | ⟨1, _⟩ => by show j.val = 0 + j.val; omega)

end Cert.KernelIdeal.Tail

end
-- ==== Proof.RefNet.lean ====
/-
  The reference's edge messages, read as the joined form of the edge network.

  The reference joins the two gathered feature arrays into one 32-wide row per edge, applies three dense layers with
  the weights W_phi[0], W_phi[1], W_phi[2] and the bias rows b_phi[0], b_phi[1], b_phi[2], each followed by tanh, and
  a bias-free projection W_meas followed by tanh.  A weight W_phi[l] reaches its product as a slice of the weight
  argument cast from [1, 32, 32] to [32, 32]; a bias row as a slice of the bias argument cast to a vector, back to a
  one-row matrix, and broadcast down the rows; each is read here at an index.  The host's product at an entry is the
  plain sum over the contracted axis.
-/
import proofs.«171329_j52656299049059_2_alg».proof.Proof.Gen.ReferenceIdeal.Read
import proofs.«171329_j52656299049059_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefNet

open Cert.ReferenceIdeal Cert.ReferenceIdeal.Gen Cert.ReferenceIdeal.Read Idealize.ShloMosaic Idealize.ShloMosaic.ValueIdx Cert.Dense Cert.EdgeNet

/-- W_phi[l] as a [32, 32] matrix and b_phi[l] as a one-row matrix. -/
def W (a3 : S3x32x32.Idx → EReal) (l : Fin 3) : Mat 32 32 := fun i => a3 (ix3 l (i 0) (i 1))
def B (a4 : S3x32.Idx → EReal) (l : Fin 3) : Mat 1 32 := fun i => a4 (ix2 l (i 1))

theorem w0_eq (a3 : S3x32x32.Idx → EReal) : val_main_v20 (F := Ideal) a3 = W a3 0 := by
  funext i
  have h0 : (i 0).val < 32 := (i 0).isLt
  have h1 : (i 1).val < 32 := (i 1).isLt
  rw [val_main_v20_apply, val_main_v19_apply]
  exact congrArg a3 (funext fun a => Fin.ext (match a with
    | ⟨0, _⟩ => rfl
    | ⟨1, _⟩ => by show ((i 0).val * 32 + (i 1).val) / 32 % 32 = (i 0).val; omega
    | ⟨2, _⟩ => by show ((i 0).val * 32 + (i 1).val) % 32 = (i 1).val; omega))
theorem w1_eq (a3 : S3x32x32.Idx → EReal) : val_main_v29 (F := Ideal) a3 = W a3 1 := by
  funext i
  have h0 : (i 0).val < 32 := (i 0).isLt
  have h1 : (i 1).val < 32 := (i 1).isLt
  rw [val_main_v29_apply, val_main_v28_apply]
  exact congrArg a3 (funext fun a => Fin.ext (match a with
    | ⟨0, _⟩ => rfl
    | ⟨1, _⟩ => by show ((i 0).val * 32 + (i 1).val) / 32 % 32 = (i 0).val; omega
    | ⟨2, _⟩ => by show ((i 0).val * 32 + (i 1).val) % 32 = (i 1).val; omega))
theorem w2_eq (a3 : S3x32x32.Idx → EReal) : val_main_v38 (F := Ideal) a3 = W a3 2 := by
  funext i
  have h0 : (i 0).val < 32 := (i 0).isLt
  have h1 : (i 1).val < 32 := (i 1).isLt
  rw [val_main_v38_apply, val_main_v37_apply]
  exact congrArg a3 (funext fun a => Fin.ext (match a with
    | ⟨0, _⟩ => rfl
    | ⟨1, _⟩ => by show ((i 0).val * 32 + (i 1).val) / 32 % 32 = (i 0).val; omega
    | ⟨2, _⟩ => by show ((i 0).val * 32 + (i 1).val) % 32 = (i 1).val; omega))

theorem b0_eq (a4 : S3x32.Idx → EReal) : val_main_v25 (F := Ideal) a4 = fun i => a4 (ix2 (0 : Fin 3) (i 1)) := by
  funext i
  have h1 : (i 1).val < 32 := (i 1).isLt
  rw [val_main_v25_apply, val_main_v24_apply, val_main_v23_apply, val_main_v22_apply]
  exact congrArg a4 (funext fun a => Fin.ext (match a with
    | ⟨0, _⟩ => rfl
    | ⟨1, _⟩ => by show ((i 1).val) % 32 = (i 1).val; omega))
theorem b1_eq (a4 : S3x32.Idx → EReal) : val_main_v34 (F := Ideal) a4 = fun i => a4 (ix2 (1 : Fin 3) (i 1)) := by
  funext i
  have h1 : (i 1).val < 32 := (i 1).isLt
  rw [val_main_v34_apply, val_main_v33_apply, val_main_v32_apply, val_main_v31_apply]
  exact congrArg a4 (funext fun a => Fin.ext (match a with
    | ⟨0, _⟩ => rfl
    | ⟨1, _⟩ => by show ((i 1).val) % 32 = (i 1).val; omega))
theorem b2_eq (a4 : S3x32.Idx → EReal) : val_main_v43 (F := Ideal) a4 = fun i => a4 (ix2 (2 : Fin 3) (i 1)) := by
  funext i
  have h1 : (i 1).val < 32 := (i 1).isLt
  rw [val_main_v43_apply, val_main_v42_apply, val_main_v41_apply, val_main_v40_apply]
  exact congrArg a4 (funext fun a => Fin.ext (match a with
    | ⟨0, _⟩ => rfl
    | ⟨1, _⟩ => by show ((i 1).val) % 32 = (i 1).val; omega))

/-- The host's product of two matrices is the textbook product. -/
theorem dot32 (l : FVec Ideal S3200000x32 .f32) (r : FVec Ideal S32x32 .f32) :
    Host.dotGeneral dot_S3200000x32_S32x32_S3200000x32_1_0_0_1_n_n none l r = mm l r := by
  funext i
  simp only [Host.dotGeneral]
  exact dotGeneral_eq dot_S3200000x32_S32x32_S3200000x32_1_0_0_1_n_n rfl rfl lhs_main_v21_0 lhs_main_v21_1 rhs_main_v21_0 rhs_main_v21_1 _ _ l r i
theorem dotOut (l : FVec Ideal S3200000x32 .f32) (r : FVec Ideal S32x16 .f32) :
    Host.dotGeneral dot_S3200000x32_S32x16_S3200000x16_1_0_0_1_n_n none l r = mm l r := by
  funext i
  simp only [Host.dotGeneral]
  exact dotGeneral_eq dot_S3200000x32_S32x16_S3200000x16_1_0_0_1_n_n rfl rfl lhs_main_v46_0 lhs_main_v46_1 rhs_main_v46_0 rhs_main_v46_1 _ _ l r i

variable (a0 : S100000x16.Idx → EReal) (a1 : (⟨S2x3200000, .i32⟩ : BufTy).Contents (Elt Ideal))
  (a3 : S3x32x32.Idx → EReal) (a4 : S3x32.Idx → EReal) (a5 : S32x16.Idx → EReal)

theorem layer1 : val_main_v27 (F := Ideal) a0 a1 a3 a4 = act (lin (val_main_v18 (F := Ideal) a0 a1) (W a3 0) (B a4 0)) := by
  unfold val_main_v27 val_main_v26 val_main_v21
  rw [dot32, w0_eq, b0_eq]
  rfl
theorem layer2 : val_main_v36 (F := Ideal) a0 a1 a3 a4 = act (lin (val_main_v27 (F := Ideal) a0 a1 a3 a4) (W a3 1) (B a4 1)) := by
  unfold val_main_v36 val_main_v35 val_main_v30
  rw [dot32, w1_eq, b1_eq]
  rfl
theorem layer3 : val_main_v45 (F := Ideal) a0 a1 a3 a4 = act (lin (val_main_v36 (F := Ideal) a0 a1 a3 a4) (W a3 2) (B a4 2)) := by
  unfold val_main_v45 val_main_v44 val_main_v39
  rw [dot32, w2_eq, b2_eq]
  rfl
theorem layerOut : val_main_v47 (F := Ideal) a0 a1 a3 a4 a5 = act (mm (val_main_v45 (F := Ideal) a0 a1 a3 a4) a5) := by
  unfold val_main_v47 val_main_v46
  rw [dotOut]
  rfl

/-- The reference's messages are the joined form of the network on the joined feature rows. -/
theorem msg_eq : val_main_v47 (F := Ideal) a0 a1 a3 a4 a5
    = msgCat (val_main_v18 (F := Ideal) a0 a1) (W a3 0) (W a3 1) (W a3 2) (B a4 0) (B a4 1) (B a4 2) a5 := by
  unfold msgCat
  rw [layerOut, layer3, layer2, layer1]

/-- The joined row: its first sixteen entries are the first end's features, its last sixteen the second end's. -/
theorem cat_lo (r : Fin 3200000) (k : Fin 16) :
    val_main_v18 (F := Ideal) a0 a1 (ix2 r (lo k)) = val_main_v10 (F := Ideal) a0 a1 (ix2 r k) := by
  unfold val_main_v18
  exact concatenate_pair_apply_left (t := S3200000x32) (s₁ := S3200000x16) (s₂ := S3200000x16) (1 : Fin 2) (val_main_v10 (F := Ideal) a0 a1) (val_main_v17 (F := Ideal) a0 a1) _ (ix2 r (lo k)) rfl (ix2 r k)
    (fun b => match b with | ⟨0, _⟩ => rfl | ⟨1, _⟩ => rfl)
theorem cat_hi (r : Fin 3200000) (k : Fin 16) :
    val_main_v18 (F := Ideal) a0 a1 (ix2 r (hi k)) = val_main_v17 (F := Ideal) a0 a1 (ix2 r k) := by
  unfold val_main_v18
  exact concatenate_pair_apply_right (t := S3200000x32) (s₁ := S3200000x16) (s₂ := S3200000x16) (1 : Fin 2) (val_main_v10 (F := Ideal) a0 a1) (val_main_v17 (F := Ideal) a0 a1) _ (ix2 r (hi k)) rfl rfl (ix2 r k)
    (fun b hb => match b, hb with | ⟨0, _⟩, _ => rfl | ⟨1, _⟩, hb => absurd rfl hb)
    (by show k.val + 16 = 16 + k.val; omega)

end Cert.ReferenceIdeal.RefNet

end
-- ==== Proof.Bridge.lean ====
/-
  The two programs compute one function.

  Edge messages: the kernel's network takes an edge's two feature rows apart and the first weight as its two halves;
  the reference joins the rows and uses the whole weight.  The joined row's first sixteen entries are the first
  end's features and its last sixteen the second end's, and the weight's first sixteen rows are the one half and its
  last sixteen the other, so the first layer's 32-term sum is the sum of the kernel's two 16-term sums; the later
  layers are spelled alike.  Node values: the same splitting, of the node's own features joined to its summed
  messages against the projection weight.  Everything after the node values is spelled alike in both programs.
-/
import proofs.«171329_j52656299049059_2_alg».proof.Proof.KernelTail
import proofs.«171329_j52656299049059_2_alg».proof.Proof.RefNet

set_option maxRecDepth 16384

noncomputable section

namespace Cert.Bridge

open Cert.ReferenceIdeal Cert.ReferenceIdeal.Gen Cert.ReferenceIdeal.Read Cert.ReferenceIdeal.RefNet
open Idealize.ShloMosaic Idealize.ShloMosaic.ValueIdx Cert.Dense Cert.EdgeNet
open Cert.KernelIdeal.HostSide (wA wB wR wA_apply wB_apply wR_apply)
open Cert.KernelIdeal.Tail (gT gB aggr node pool dotNode gT_apply gB_apply)

variable (a0 : S100000x16.Idx → EReal) (a1 : (⟨S2x3200000, .i32⟩ : BufTy).Contents (Elt Ideal))
  (a2 : (⟨S100000, .i32⟩ : BufTy).Contents (Elt Ideal))
  (a3 : S3x32x32.Idx → EReal) (a4 : S3x32.Idx → EReal) (a5 : S32x16.Idx → EReal) (a6 : S32x1.Idx → EReal) (a7 : S1.Idx → EReal)

/-- The kernel's network of the arrays it is handed is the reference's message array. -/
theorem edge_eq : net (val_main_v10 (F := Ideal) a0 a1) (val_main_v17 (F := Ideal) a0 a1) (wA a3) (wB a3) (wR a3) a4 a5
    = val_main_v47 (F := Ideal) a0 a1 a3 a4 a5 := by
  rw [msg_eq]
  unfold net
  rw [msgSplit_eq_msgCat (val_main_v10 (F := Ideal) a0 a1) (val_main_v17 (F := Ideal) a0 a1) (val_main_v18 (F := Ideal) a0 a1)
      (wA a3) (wB a3) (W a3 0) _ _ _ _ _ _
      (fun r k => cat_lo a0 a1 r k) (fun r k => cat_hi a0 a1 r k)
      (fun k j => (wA_apply a3 k j).symm) (fun k j => (wB_apply a3 k j).symm)]
  have e1 : (fun i => wR a3 (ix3 (0 : Fin 2) (i 0) (i 1)) : Mat 32 32) = W a3 1 := funext fun i => wR_apply a3 0 (i 0) (i 1)
  have e2 : (fun i => wR a3 (ix3 (1 : Fin 2) (i 0) (i 1)) : Mat 32 32) = W a3 2 := funext fun i => wR_apply a3 1 (i 0) (i 1)
  rw [e1, e2]
  rfl

/-- The node's joined row: its own features, then its summed messages. -/
theorem nodecat_lo (r : Fin 100000) (k : Fin 16) : val_main_v51 (F := Ideal) a0 a1 a3 a4 a5 (ix2 r (lo k)) = a0 (ix2 r k) := by
  unfold val_main_v51
  exact concatenate_pair_apply_left (t := S100000x32) (s₁ := S100000x16) (s₂ := S100000x16) (1 : Fin 2) a0
    (val_main_v50 (F := Ideal) a0 a1 a3 a4 a5) _ (ix2 r (lo k)) rfl (ix2 r k)
    (fun b => match b with | ⟨0, _⟩ => rfl | ⟨1, _⟩ => rfl)
theorem nodecat_hi (r : Fin 100000) (k : Fin 16) :
    val_main_v51 (F := Ideal) a0 a1 a3 a4 a5 (ix2 r (hi k)) = val_main_v50 (F := Ideal) a0 a1 a3 a4 a5 (ix2 r k) := by
  unfold val_main_v51
  exact concatenate_pair_apply_right (t := S100000x32) (s₁ := S100000x16) (s₂ := S100000x16) (1 : Fin 2) a0
    (val_main_v50 (F := Ideal) a0 a1 a3 a4 a5) _ (ix2 r (hi k)) rfl rfl (ix2 r k)
    (fun b hb => match b, hb with | ⟨0, _⟩, _ => rfl | ⟨1, _⟩, hb => absurd rfl hb)
    (by show k.val + 16 = 16 + k.val; omega)

/-- The reference's node product is the textbook product. -/
theorem dotNodeR (l : FVec Ideal S100000x32 .f32) (r : FVec Ideal S32x1 .f32) :
    Host.dotGeneral dot_S100000x32_S32x1_S100000x1_1_0_0_1_n_n none l r = mm l r := by
  funext i
  simp only [Host.dotGeneral]
  exact dotGeneral_eq dot_S100000x32_S32x1_S100000x1_1_0_0_1_n_n rfl rfl lhs_main_v52_0 lhs_main_v52_1 rhs_main_v52_0 rhs_main_v52_1 _ _ l r i

/-- The kernel's node values, of the reference's messages, are the reference's node values. -/
theorem node_eq : node (val_main_v47 (F := Ideal) a0 a1 a3 a4 a5) (val_main_v1 (F := Ideal) a1) a0 a6 a7
    = val_main_v55 (F := Ideal) a0 a1 a3 a4 a5 a6 a7 := by
  funext i
  have hs := mm_split a0 (val_main_v50 (F := Ideal) a0 a1 a3 a4 a5) (val_main_v51 (F := Ideal) a0 a1 a3 a4 a5) (gT a6) (gB a6) a6
    (fun r k => nodecat_lo a0 a1 a3 a4 a5 r k) (fun r k => nodecat_hi a0 a1 a3 a4 a5 r k)
    (fun k j => (gT_apply a6 k j).symm) (fun k j => (gB_apply a6 k j).symm) i
  unfold node val_main_v55 val_main_v52
  rw [dotNode, dotNode, dotNodeR]
  exact congrArg₂ (· + ·) hs rfl

/-- The kernel's result, of the arrays it is handed, is the reference's result. -/
theorem result_eq :
    pool (node (net (val_main_v10 (F := Ideal) a0 a1) (val_main_v17 (F := Ideal) a0 a1) (wA a3) (wB a3) (wR a3) a4 a5)
        (val_main_v1 (F := Ideal) a1) a0 a6 a7) a2
      = val_main_v65 (F := Ideal) a0 a1 a2 a3 a4 a5 a6 a7 := by
  rw [edge_eq, node_eq]
  rfl

end Cert.Bridge

end
-- ==== Proof.lean ====
/-
  The certificate: an edge network evaluated block by block on the two ends' features kept apart, followed by a
  scatter-add into nodes, a node projection with the node's own features and its summed messages kept apart, and a
  per-graph mean — against the same computation on joined rows.

  On the extended reals the kernel and the reference are one function of the arguments: the only differences are
  two 32-term sums the kernel evaluates as two 16-term sums each (Spec, Bridge), and the tiling of the edges into
  200 blocks of 16000 rows (KernelBody, KernelBlocks).  No finiteness of the inputs is used: a sum may be regrouped
  in any commutative monoid.  The three frames are the generated ones; the idealization's ledger is empty, so the
  conjunct relating the kernel to its idealization is the proposition True as stated.
-/
import proofs.«171329_j52656299049059_2_alg».proof.Defs
import proofs.«171329_j52656299049059_2_alg».proof.Proof.Gen.Kernel
import proofs.«171329_j52656299049059_2_alg».proof.Proof.Gen.Kernel.Skeleton
import proofs.«171329_j52656299049059_2_alg».proof.Proof.Gen.Kernel.Launch
import proofs.«171329_j52656299049059_2_alg».proof.Proof.Gen.Kernel.Points
import proofs.«171329_j52656299049059_2_alg».proof.Proof.Gen.Kernel.Frame
import proofs.«171329_j52656299049059_2_alg».proof.Proof.Gen.KernelIdeal
import proofs.«171329_j52656299049059_2_alg».proof.Proof.Gen.KernelIdeal.Skeleton
import proofs.«171329_j52656299049059_2_alg».proof.Proof.Gen.KernelIdeal.Launch
import proofs.«171329_j52656299049059_2_alg».proof.Proof.Gen.KernelIdeal.Points
import proofs.«171329_j52656299049059_2_alg».proof.Proof.Gen.KernelIdeal.Frame
import proofs.«171329_j52656299049059_2_alg».proof.Proof.Gen.ReferenceIdeal
import proofs.«171329_j52656299049059_2_alg».proof.Proof.Gen.ReferenceIdeal.Run
import proofs.«171329_j52656299049059_2_alg».proof.Proof.Gen.ReferenceIdeal.Read
import proofs.«171329_j52656299049059_2_alg».proof.Proof.Gen.Pre_finite_inputs
import proofs.«171329_j52656299049059_2_alg».proof.Proof.Bridge
import Idealize.ShloMosaic.Adequacy
import Idealize.ShloMosaic.Init

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The reference's result function at the kernel's argument arrays. -/
abbrev res (c : Dev nD) : Buf (Elt Ideal) ((c.tc : Thread nD τ).loc main_v44) :=
  Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxHeartbeats 4000000 in
/-- What the kernel's result buffer holds after the run is the reference's function of the arguments. -/
theorem value (c : Dev nD) : Pipeline.afterTail₀ cfgs (dats m) 0 (V0 m) [hostOps1] c main_v44 = res m c := by
  rw [Cert.KernelIdeal.Tail.result_eq]
  unfold Cert.KernelIdeal.Blocks.msgArr
  rw [Cert.KernelIdeal.HostSide.V_v10, Cert.KernelIdeal.HostSide.V_v17, Cert.KernelIdeal.HostSide.V_v19,
    Cert.KernelIdeal.HostSide.V_v21, Cert.KernelIdeal.HostSide.V_v22, Cert.KernelIdeal.HostSide.V_v1,
    V_main_arg4, V_main_arg5]
  exact Cert.Bridge.result_eq _ _ _ _ _ _ _ _

/-- The kernel's run: every weakly fair execution terminates with the result buffer at the reference's function of
    the arguments and the arguments unchanged. -/
theorem run : θ_run defs (onTc (τ := τ) (main (F := Ideal))) ⟨m, fun _ => 0, ρ⟩ (fun r => ∀ c : Dev nD,
      r.2.mem ((c.tc : Thread nD τ).loc main_v44) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v44 (Pipeline.mem_restRefs_of main_v44 (by decide) (by decide))).trans (value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Result

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the reference's function of those
    arguments in their result buffers. -/
theorem algebraic : Cert.algebraic_KernelIdeal_ReferenceIdeal := by
  intro m ρ m' ρ' _ hagree
  refine ⟨fun c => Cert.KernelIdeal.Result.res m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v65_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
